-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S256 .f32) (main_arg5 : FVec F S256x128 .f32) (main_arg6 : FVec F S128 .f32) (main_arg7 : FVec F S128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S16384x512 .f32) (main_arg1 : FVec F S512x256 .f32) (main_arg2 : FVec F S256 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S16384x128 : Shape := ⟨2, ![16384, 128]⟩
abbrev S1024x512 : Shape := ⟨2, ![1024, 512]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x256, .f32⟩
  | .hbm, ⟨10, _⟩ => ⟨S1x256, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S16384x128, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256_S1x256 : S256.ShapeCasts S1x256
  shapeCasts_S128_S1x128 : S128.ShapeCasts S1x128
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S16384x128.size a
  hwx0_9 : ∀ i : grid0.Coords, EltTy.bits .f32 = 32 ∨ (Rect.block (s := S16384x128) S1024x128.size (cc0_transform_9 i) (hinb0_9 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S16384x256 : Shape := ⟨2, ![16384, 256]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S_, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S16384x256, .f32⟩
  | .hbm, ⟨22, _⟩ => ⟨S16384x256, .f32⟩
  | .hbm, ⟨23, _⟩ => ⟨S16384x128, .f32⟩
  | .hbm, ⟨24, _⟩ => ⟨S1x128, .f32⟩
  | .hbm, ⟨25, _⟩ => ⟨S16384x128, .f32⟩
  | .hbm, ⟨26, _⟩ => ⟨S16384x128, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x128, .f32⟩
  | .hbm, ⟨43, _⟩ => ⟨S16384x128, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x128, .f32⟩
  | .hbm, ⟨49, _⟩ => ⟨S16384x128, .f32⟩
  | .hbm, ⟨50, _⟩ => ⟨S1x128, .f32⟩
  | .hbm, ⟨51, _⟩ => ⟨S16384x128, .f32⟩
  | .hbm, ⟨52, _⟩ => ⟨S16384x128, .f32⟩
  | .hbm, ⟨53, _⟩ => ⟨S1x128, .f32⟩
  | .hbm, ⟨54, _⟩ => ⟨S16384x128, .f32⟩
  | .hbm, ⟨55, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S16384x512_S512x256_S16384x256_1_0_0_1_n_n_wf : DotDims.WF S16384x512 S512x256 S16384x256 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.LibNormLaw.lean ====
/-
  The mathematics shared by the two programs, stated once over plain finite index types and the extended reals.

  A row `x` of the input goes through three affine layers (a row times a matrix plus a bias), the first two followed
  by a maximum with a floor `z`; the resulting latent row `h` is centred at its mean `(∑ h) / c`, and the centred row
  `d` is scaled by the inverse square root of `v = (∑ d²) / c + e`, then by a gain and shifted by an offset.

  One program writes the scaling as the product `d · v^(-1/2)`, the other as the quotient `d / √v`. On the extended
  reals the two agree exactly when `0 < v`: for a positive real `v` both are `d · (√v)⁻¹`, at `v = ⊤` both are `d · 0`,
  while at `0`, at a negative real and at `⊥` they differ. Here `0 < v` always holds: a square is nonnegative on the
  extended reals (`⊥ · ⊥ = ⊤`), so is a sum of squares and its quotient by a positive real `c`, and `e` is a positive real.
  So the two forms agree for EVERY input row, infinite entries included.
-/
import Idealize.ShloMosaic.PureOps.Ideal
import Idealize.ShloMosaic.Lib.ValueIdx

noncomputable section

namespace Cert.MlpNorm

open Idealize.ShloMosaic

/-! ## The layers -/

/-- A row times a matrix, plus a bias. -/
def affine {K N : ℕ} (x : Fin K → EReal) (W : Fin K → Fin N → EReal) (b : Fin N → EReal) : Fin N → EReal :=
  fun n => (∑ k : Fin K, x k * W k n) + b n

/-- Entrywise maximum with the floor `z`. -/
def floorAt {N : ℕ} (z : EReal) (v : Fin N → EReal) : Fin N → EReal := fun n => max (v n) z

/-- The latent row: three affine layers, the first two floored at `z`. -/
def latent {K0 K1 K2 N : ℕ} (z : EReal) (x : Fin K0 → EReal) (W1 : Fin K0 → Fin K1 → EReal) (b1 : Fin K1 → EReal)
    (W2 : Fin K1 → Fin K2 → EReal) (b2 : Fin K2 → EReal) (W3 : Fin K2 → Fin N → EReal) (b3 : Fin N → EReal) : Fin N → EReal :=
  affine (floorAt z (affine (floorAt z (affine x W1 b1)) W2 b2)) W3 b3

/-- The row's mean: its sum divided by `c`. -/
def mean {N : ℕ} (c : EReal) (h : Fin N → EReal) : EReal := Ideal.div (∑ k : Fin N, h k) c

/-- The row minus its mean. -/
def centred {N : ℕ} (c : EReal) (h : Fin N → EReal) : Fin N → EReal := fun j => h j - mean c h

/-- The mean of the squares of a row, plus `e`. -/
def spread {N : ℕ} (c e : EReal) (d : Fin N → EReal) : EReal := Ideal.div (∑ k : Fin N, d k * d k) c + e

/-- The normalised row, the scaling written as a product with the inverse square root. -/
def normMul {N : ℕ} (c e : EReal) (g b : Fin N → EReal) (h : Fin N → EReal) : Fin N → EReal :=
  fun j => centred c h j * Ideal.rsqrt (spread c e (centred c h)) * g j + b j

/-- The normalised row, the scaling written as a quotient by the square root. -/
def normDiv {N : ℕ} (c e : EReal) (g b : Fin N → EReal) (h : Fin N → EReal) : Fin N → EReal :=
  fun j => Ideal.div (centred c h j) (Ideal.sqrt (spread c e (centred c h))) * g j + b j

/-! ## The law -/

/-- A square is nonnegative on the extended reals. -/
theorem mul_self_nonneg (a : EReal) : 0 ≤ a * a :=
  EReal.mul_nonneg_iff.mpr ((le_total 0 a).imp (fun h => ⟨h, h⟩) (fun h => ⟨h, h⟩))

/-- A finite sum of squares is nonnegative. -/
theorem sum_sq_nonneg {N : ℕ} (d : Fin N → EReal) : 0 ≤ ∑ k : Fin N, d k * d k :=
  Finset.sum_nonneg fun k _ => mul_self_nonneg (d k)

/-- The mean of squares plus a positive real is positive, whatever the row. -/
theorem spread_pos {N : ℕ} {c e : EReal} {cr er : ℝ} (hc : c = (cr : EReal)) (hcr : 0 < cr) (he : e = (er : EReal)) (her : 0 < er)
    (d : Fin N → EReal) : 0 < spread c e d := by
  unfold spread
  rw [hc, he, Ideal.div_coe hcr.ne', add_comm]
  refine EReal.add_pos_of_pos_of_nonneg (EReal.coe_pos.mpr her) (EReal.mul_nonneg (sum_sq_nonneg d) ?_)
  exact EReal.coe_nonneg.mpr (by positivity)

/-- For `0 < v` the product with the inverse square root is the quotient by the square root, for every extended real `x`. -/
theorem mul_rsqrt_eq_div_sqrt (x v : EReal) (hv : 0 < v) : x * Ideal.rsqrt v = Ideal.div x (Ideal.sqrt v) := by
  induction v using EReal.rec with
  | bot => exact absurd hv (not_lt_bot)
  | coe r =>
    have hr : 0 < r := EReal.coe_pos.mp hv
    have hs : Real.sqrt r ≠ 0 := (Real.sqrt_pos.mpr hr).ne'
    have hs' : ((Real.sqrt r : ℝ) : EReal) ≠ 0 := by exact_mod_cast hs
    rw [Ideal.rsqrt_coe, Ideal.sqrt_coe, if_neg (not_lt.mpr hr.le), if_neg hr.ne', if_neg (not_lt.mpr hr.le), Ideal.div,
      if_neg hs', EReal.coe_inv]
  | top =>
    rw [Ideal.rsqrt_top, Ideal.sqrt_top, Ideal.div, if_neg EReal.top_ne_zero, EReal.inv_top]

/-- The two ways of writing the normalised row agree, for every latent row. -/
theorem normMul_eq_normDiv {N : ℕ} {c e : EReal} {cr er : ℝ} (hc : c = (cr : EReal)) (hcr : 0 < cr) (he : e = (er : EReal))
    (her : 0 < er) (g b h : Fin N → EReal) : normMul c e g b h = normDiv c e g b h := by
  funext j
  unfold normMul normDiv
  rw [mul_rsqrt_eq_div_sqrt _ _ (spread_pos hc hcr he her (centred c h))]

end Cert.MlpNorm

end
-- ==== Proof.Literals.lean ====
/-
  The two float words the normalisation uses, as the extended reals they denote: `0x43000000` is the real 128 (the row
  length the sums are divided by) and `0x3727C5AC` is the positive real 10995116 · 2⁻⁴⁰ (the single-precision number
  nearest to 10⁻⁵). Only their being positive reals is used.
-/
import Idealize.ShloMosaic.PureOps.Ideal

noncomputable section

namespace Cert.MlpNorm

open Idealize.ShloMosaic

/-- The divisor word denotes the real 128. -/
theorem word_128 : Ideal.ofBits .f32 0x43000000#32 = ((128 : ℝ) : EReal) := by
  simp [Ideal.ofBits, Ideal.ieee, -EReal.coe_mul]; norm_num

/-- The word added under the square root denotes a positive real. -/
theorem word_eps : Ideal.ofBits .f32 0x3727C5AC#32 = (((10995116 : ℝ) * (2 : ℝ) ^ (-40 : ℤ) : ℝ) : EReal) := by
  simp [Ideal.ofBits, Ideal.ieee, -EReal.coe_mul]

theorem eps_pos : (0 : ℝ) < (10995116 : ℝ) * (2 : ℝ) ^ (-40 : ℤ) := by positivity

end Cert.MlpNorm

end
-- ==== Proof.Spec.lean ====
/-
  The result as ONE function of the nine argument arrays, index by index: entry (r, j) of the result is entry j of the
  normalised latent row of row r of the first argument. The weight matrices are read whole, the bias, gain and offset
  vectors entry by entry. Two spellings, which agree (the law of the layers' module): the scaling as a product with the inverse square root,
  and as a quotient by the square root.
-/
import proofs.«110389_g87505663689473_cont_9to1_m_1202_3_alg».proof.Proof.LibNormLaw
import proofs.«110389_g87505663689473_cont_9to1_m_1202_3_alg».proof.Proof.Literals

noncomputable section

namespace Cert.MlpNorm

open Idealize.ShloMosaic Idealize.ShloMosaic.ValueIdx

/-- Row `r` of a matrix. -/
abbrev rowOf {R K : ℕ} (x : (⟨2, ![R, K]⟩ : Shape).Idx → EReal) (r : Fin R) : Fin K → EReal := fun k => x (ix2 r k)
/-- A matrix by its two coordinates. -/
abbrev matOf {K N : ℕ} (w : (⟨2, ![K, N]⟩ : Shape).Idx → EReal) : Fin K → Fin N → EReal := fun k n => w (ix2 k n)
/-- A vector by its coordinate. -/
abbrev vecOf {N : ℕ} (b : (⟨1, ![N]⟩ : Shape).Idx → EReal) : Fin N → EReal := fun n => b (ix1 n)
/-- The one row of a `[1, N]` array by its column. -/
abbrev oneRowOf {N : ℕ} (b : (⟨2, ![1, N]⟩ : Shape).Idx → EReal) : Fin N → EReal := fun n => b (ix2 (0 : Fin 1) n)

/-- The floor of the two maxima, the divisor of the two means and the number added under the root, as the programs
    spell them. -/
abbrev wordZero : EReal := Ideal.ofBits .f32 0x00000000#32
abbrev wordLen : EReal := Ideal.ofBits .f32 0x43000000#32
abbrev wordEps : EReal := Ideal.ofBits .f32 0x3727C5AC#32

/-- A rank-2 index is `ix2` of any two coordinates with its coordinates' values. -/
theorem ix2_of {n0 n1 : ℕ} (j : (⟨2, ![n0, n1]⟩ : Shape).Idx) (a : Fin n0) (b : Fin n1) (h0 : (j 0).val = a.val)
    (h1 : (j 1).val = b.val) : j = ix2 a b := by
  funext d
  match d with
  | ⟨0, _⟩ => exact Fin.ext h0
  | ⟨1, _⟩ => exact Fin.ext h1

/-- A rank-1 index is `ix1` of any coordinate with its coordinate's value. -/
theorem ix1_of {n : ℕ} (j : (⟨1, ![n]⟩ : Shape).Idx) (a : Fin n) (h0 : (j 0).val = a.val) : j = ix1 a := by
  funext d
  match d with
  | ⟨0, _⟩ => exact Fin.ext h0

/-- The latent row of row `r`. -/
abbrev latentRow {R : ℕ} (state : (⟨2, ![R, 512]⟩ : Shape).Idx → EReal) (W1 : (⟨2, ![512, 256]⟩ : Shape).Idx → EReal)
    (b1 : Fin 256 → EReal) (W2 : (⟨2, ![256, 256]⟩ : Shape).Idx → EReal) (b2 : Fin 256 → EReal)
    (W3 : (⟨2, ![256, 128]⟩ : Shape).Idx → EReal) (b3 : Fin 128 → EReal) (r : Fin R) : Fin 128 → EReal :=
  latent wordZero (rowOf state r) (matOf W1) b1 (matOf W2) b2 (matOf W3) b3

/-- The result array, the scaling as a product with the inverse square root. -/
def resultMul (state : (⟨2, ![16384, 512]⟩ : Shape).Idx → EReal) (W1 : (⟨2, ![512, 256]⟩ : Shape).Idx → EReal)
    (b1 : (⟨1, ![256]⟩ : Shape).Idx → EReal) (W2 : (⟨2, ![256, 256]⟩ : Shape).Idx → EReal) (b2 : (⟨1, ![256]⟩ : Shape).Idx → EReal)
    (W3 : (⟨2, ![256, 128]⟩ : Shape).Idx → EReal) (b3 g bt : (⟨1, ![128]⟩ : Shape).Idx → EReal) :
    (⟨2, ![16384, 128]⟩ : Shape).Idx → EReal :=
  fun i => normMul wordLen wordEps (vecOf g) (vecOf bt) (latentRow state W1 (vecOf b1) W2 (vecOf b2) W3 (vecOf b3) (i 0)) (i 1)

/-- The result array, the scaling as a quotient by the square root. -/
def resultDiv (state : (⟨2, ![16384, 512]⟩ : Shape).Idx → EReal) (W1 : (⟨2, ![512, 256]⟩ : Shape).Idx → EReal)
    (b1 : (⟨1, ![256]⟩ : Shape).Idx → EReal) (W2 : (⟨2, ![256, 256]⟩ : Shape).Idx → EReal) (b2 : (⟨1, ![256]⟩ : Shape).Idx → EReal)
    (W3 : (⟨2, ![256, 128]⟩ : Shape).Idx → EReal) (b3 g bt : (⟨1, ![128]⟩ : Shape).Idx → EReal) :
    (⟨2, ![16384, 128]⟩ : Shape).Idx → EReal :=
  fun i => normDiv wordLen wordEps (vecOf g) (vecOf bt) (latentRow state W1 (vecOf b1) W2 (vecOf b2) W3 (vecOf b3) (i 0)) (i 1)

/-- The two spellings are one array: the number under the root is positive for every input. -/
theorem resultMul_eq_resultDiv (state : (⟨2, ![16384, 512]⟩ : Shape).Idx → EReal) (W1 : (⟨2, ![512, 256]⟩ : Shape).Idx → EReal)
    (b1 : (⟨1, ![256]⟩ : Shape).Idx → EReal) (W2 : (⟨2, ![256, 256]⟩ : Shape).Idx → EReal) (b2 : (⟨1, ![256]⟩ : Shape).Idx → EReal)
    (W3 : (⟨2, ![256, 128]⟩ : Shape).Idx → EReal) (b3 g bt : (⟨1, ![128]⟩ : Shape).Idx → EReal) :
    resultMul state W1 b1 W2 b2 W3 b3 g bt = resultDiv state W1 b1 W2 b2 W3 b3 g bt := by
  funext i
  unfold resultMul resultDiv
  rw [normMul_eq_normDiv word_128 (by norm_num) word_eps eps_pos]

end Cert.MlpNorm

end
-- ==== Proof.RefRows.lean ====
/-
  The reference, stage by stage, read at an index given by its coordinates: each stage's entry at row `r` is the
  corresponding row-wise function of row `r` of the first argument — an affine layer floored at zero, the latent row, its
  mean, the centred row, the mean of its squares plus the small positive number, and the normalised row with the
  scaling written as a quotient by the square root. The reference's sums carry an initial value, the zero word, which
  is the real 0.
-/
import proofs.«110389_g87505663689473_cont_9to1_m_1202_3_alg».proof.Proof.Spec
import proofs.«110389_g87505663689473_cont_9to1_m_1202_3_alg».proof.Proof.Gen.ReferenceIdeal.Read
import Idealize.ShloMosaic.PureOps.Ideal.Laws

noncomputable section

namespace Cert.MlpNorm.Ref

open Cert.ReferenceIdeal Cert.ReferenceIdeal.Read Cert.MlpNorm Idealize.ShloMosaic Idealize.ShloMosaic.ValueIdx

variable (x0 : (⟨S16384x512, .f32⟩ : BufTy).Contents (Elt Ideal)) (x1 : (⟨S512x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 x7 x8 : (⟨S128, .f32⟩ : BufTy).Contents (Elt Ideal))

/-- The first layer's entry (r, n): row r times column n of the first matrix, plus the bias, floored at zero. -/
theorem layer1 (r : Fin 16384) (n : Fin 256) :
    val_main_v5 (F := Ideal) x0 x1 x2 (ix2 r n) = floorAt wordZero (affine (rowOf x0 r) (matOf x1) (vecOf x2)) n := by
  rw [val_main_v5_apply, val_main_v3_apply, val_main_v0_apply, val_main_v2_apply, val_main_v1_apply, val_main_v4_apply,
    val_main_cst_apply]
  have e1 : ∀ k, lidx_main_v0 (ix2 r n) k = ix2 r k := fun k => ix2_of _ _ _ rfl rfl
  have e2 : ∀ k, ridx_main_v0 (ix2 r n) k = ix2 k n := fun k => ix2_of _ _ _ rfl rfl
  have e3 : idx_main_v1 (idx_main_v2 (ix2 r n)) = ix1 n := ix1_of _ _ rfl
  simp only [e1, e2, e3]
  rfl

/-- The second layer's entry (r, n). -/
theorem layer2 (r : Fin 16384) (n : Fin 256) :
    val_main_v11 (F := Ideal) x0 x1 x2 x3 x4 (ix2 r n)
      = floorAt wordZero (affine (floorAt wordZero (affine (rowOf x0 r) (matOf x1) (vecOf x2))) (matOf x3) (vecOf x4)) n := by
  rw [val_main_v11_apply, val_main_v9_apply, val_main_v6_apply, val_main_v8_apply, val_main_v7_apply, val_main_v10_apply,
    val_main_cst_0_apply]
  have e1 : ∀ k, lidx_main_v6 (ix2 r n) k = ix2 r k := fun k => ix2_of _ _ _ rfl rfl
  have e2 : ∀ k, ridx_main_v6 (ix2 r n) k = ix2 k n := fun k => ix2_of _ _ _ rfl rfl
  have e3 : idx_main_v7 (idx_main_v8 (ix2 r n)) = ix1 n := ix1_of _ _ rfl
  simp only [e1, e2, e3, layer1]
  rfl

/-- The latent row's entry (r, j). -/
theorem latent_apply (r : Fin 16384) (j : Fin 128) :
    val_main_v15 (F := Ideal) x0 x1 x2 x3 x4 x5 x6 (ix2 r j) = latentRow x0 x1 (vecOf x2) x3 (vecOf x4) x5 (vecOf x6) r j := by
  rw [val_main_v15_apply, val_main_v12_apply, val_main_v14_apply, val_main_v13_apply]
  have e1 : ∀ k, lidx_main_v12 (ix2 r j) k = ix2 r k := fun k => ix2_of _ _ _ rfl rfl
  have e2 : ∀ k, ridx_main_v12 (ix2 r j) k = ix2 k j := fun k => ix2_of _ _ _ rfl rfl
  have e3 : idx_main_v13 (idx_main_v14 (ix2 r j)) = ix1 j := ix1_of _ _ rfl
  simp only [e1, e2, e3, layer2]
  rfl

/-- The mean of latent row r, kept as a one-entry column. -/
theorem mean_apply (r : Fin 16384) (u : Fin 1) :
    val_main_v19 (F := Ideal) x0 x1 x2 x3 x4 x5 x6 (ix2 r u) = mean wordLen (latentRow x0 x1 (vecOf x2) x3 (vecOf x4) x5 (vecOf x6) r) := by
  rw [val_main_v19_apply, val_main_v17_apply, val_main_v16_apply, val_main_v18_apply, val_main_cst_2_apply, val_main_cst_1_apply]
  have e1 : ∀ k, idx_main_v16 (idx_main_v17 (ix2 r u)) k = ix2 r k := fun k => ix2_of _ _ _ rfl rfl
  simp only [e1, latent_apply]
  show Ideal.div (Ideal.ofBits .f32 0x00000000#32 + _) _ = _
  rw [Ideal.ofBits_zero_f32, zero_add]
  rfl

/-- The centred row's entry (r, j), as the reference computes it for the squares. -/
theorem centred_apply (r : Fin 16384) (j : Fin 128) :
    val_main_v21 (F := Ideal) x0 x1 x2 x3 x4 x5 x6 (ix2 r j) = centred wordLen (latentRow x0 x1 (vecOf x2) x3 (vecOf x4) x5 (vecOf x6) r) j := by
  rw [val_main_v21_apply, val_main_v20_apply, latent_apply]
  have e1 : idx_main_v20 (ix2 r j) = ix2 r (0 : Fin 1) := ix2_of _ _ _ rfl rfl
  rw [e1, mean_apply]
  rfl

/-- The centred row's entry (r, j), as the reference computes it again for the quotient. -/
theorem centred_apply' (r : Fin 16384) (j : Fin 128) :
    val_main_v28 (F := Ideal) x0 x1 x2 x3 x4 x5 x6 (ix2 r j) = centred wordLen (latentRow x0 x1 (vecOf x2) x3 (vecOf x4) x5 (vecOf x6) r) j := by
  rw [val_main_v28_apply, val_main_v27_apply, latent_apply]
  have e1 : idx_main_v27 (ix2 r j) = ix2 r (0 : Fin 1) := ix2_of _ _ _ rfl rfl
  rw [e1, mean_apply]
  rfl

/-- The number under the root for row r: the mean of the centred row's squares plus the small positive number. -/
theorem spread_apply (r : Fin 16384) (u : Fin 1) :
    val_main_v30 (F := Ideal) x0 x1 x2 x3 x4 x5 x6 (ix2 r u) = spread wordLen wordEps (centred wordLen (latentRow x0 x1 (vecOf x2) x3 (vecOf x4) x5 (vecOf x6) r)) := by
  rw [val_main_v30_apply, val_main_v26_apply, val_main_v24_apply, val_main_v23_apply, val_main_v25_apply, val_main_cst_4_apply,
    val_main_v29_apply, val_main_cst_5_apply, val_main_cst_3_apply]
  have e1 : ∀ k, idx_main_v23 (idx_main_v24 (ix2 r u)) k = ix2 r k := fun k => ix2_of _ _ _ rfl rfl
  simp only [e1, val_main_v22_apply, centred_apply]
  show Ideal.div (Ideal.ofBits .f32 0x00000000#32 + _) _ + _ = _
  rw [Ideal.ofBits_zero_f32, zero_add]
  rfl

/-- The reference's result, entry by entry, is the normalised latent row with the scaling as a quotient. -/
theorem result_eq : val_main_v39 (F := Ideal) x0 x1 x2 x3 x4 x5 x6 x7 x8 = resultDiv x0 x1 x2 x3 x4 x5 x6 x7 x8 := by
  funext i
  obtain ⟨r, j, rfl⟩ : ∃ (r : Fin 16384) (j : Fin 128), i = ix2 r j := ⟨i 0, i 1, eq_ix2 i⟩
  rw [val_main_v39_apply, val_main_v36_apply, val_main_v33_apply, val_main_v32_apply, val_main_v31_apply, val_main_v38_apply,
    val_main_v37_apply, val_main_v35_apply, val_main_v34_apply, centred_apply']
  have e1 : idx_main_v32 (ix2 r j) = ix2 r (0 : Fin 1) := ix2_of _ _ _ rfl rfl
  have e2 : idx_main_v34 (idx_main_v35 (ix2 r j)) = ix1 j := ix1_of _ _ rfl
  have e3 : idx_main_v37 (idx_main_v38 (ix2 r j)) = ix1 j := ix1_of _ _ rfl
  rw [e1, e2, e3, spread_apply]
  rfl

end Cert.MlpNorm.Ref

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRows.lean ====
/-
  What one grid point's body leaves in its output block, entry by entry. The body is three affine layers over the
  point's 1024 rows (the first two floored at zero), then, row by row, the mean over the 128 lanes, the centred row,
  the lane sum of its squares divided by 128 plus the small positive number, and the product of the centred row with
  the inverse square root of that, with the gain and the offset. Each layer is read at an entry given by its two
  coordinates: a matrix product into a zero accumulator is the plain sum over the contracted coordinate, a lane sum the
  plain sum over the lane, a bias row repeated down the rows reads its one row, and a per-row column repeated along the
  lanes reads the row's entry. So entry (p, j) of the block is entry j of the normalised latent row of row p of the
  point's input block.
-/
import proofs.«110389_g87505663689473_cont_9to1_m_1202_3_alg».proof.Proof.Spec
import proofs.«110389_g87505663689473_cont_9to1_m_1202_3_alg».proof.Proof.LibLayoutCol
import proofs.«110389_g87505663689473_cont_9to1_m_1202_3_alg».proof.Proof.Gen.KernelIdeal.Value
import Idealize.ShloMosaic.Lib.ValueLayout
import Idealize.ShloMosaic.Lib.ValueIdx
import Idealize.ShloMosaic.Lib.Pipeline.Value
import Idealize.ShloMosaic.PureOps.Ideal.Laws

noncomputable section

namespace Cert.MlpNorm.Ker

open Cert.KernelIdeal Cert.KernelIdeal.Gen Cert.MlpNorm Idealize.ShloMosaic Idealize.ShloMosaic.ValueIdx

/-! ## The three matrix products -/

/-- Matrix product 1 into a zero accumulator, read at (p, n): the sum over the 512 contracted coordinates. -/
theorem dot1_apply (X : FVec Ideal S1024x512 .bf16) (W : FVec Ideal S512x256 .bf16) (p : Fin 1024) (n : Fin 256) :
    matmul dot_S1024x512_S512x256_S1024x256_1_0_0_1_n_n none X W (constant S1024x256 .f32 0x00000000#32) (ix2 p n)
      = ∑ k : Fin 512, X (ix2 p k) * W (ix2 k n) := by
  refine (Ideal.matmul_constant_zero_apply dot_S1024x512_S512x256_S1024x256_1_0_0_1_n_n none X W (ix2 p n)).trans ?_
  rw [← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have l0 : ∀ q, (dot_S1024x512_S512x256_S1024x256_1_0_0_1_n_n.lhsIdx (ix2 p n) q 0).val = p.val := fun q => by
    unfold DotDims.lhsIdx
    rw [dif_neg (show ¬(0 : Fin S1024x512.rank) ∈ dot_S1024x512_S512x256_S1024x256_1_0_0_1_n_n.lhsBatch by decide),
      dif_pos (show (0 : Fin S1024x512.rank) ∈ dot_S1024x512_S512x256_S1024x256_1_0_0_1_n_n.lhsNonContracting by decide)]
    rfl
  have r1 : ∀ q, (dot_S1024x512_S512x256_S1024x256_1_0_0_1_n_n.rhsIdx (ix2 p n) q 1).val = n.val := fun q => by
    unfold DotDims.rhsIdx
    rw [dif_neg (show ¬(1 : Fin S512x256.rank) ∈ dot_S1024x512_S512x256_S1024x256_1_0_0_1_n_n.rhsBatch by decide),
      dif_pos (show (1 : Fin S512x256.rank) ∈ dot_S1024x512_S512x256_S1024x256_1_0_0_1_n_n.rhsNonContracting by decide)]
    rfl
  have el : dot_S1024x512_S512x256_S1024x256_1_0_0_1_n_n.lhsIdx (ix2 p n) ((contrEquiv1 dot_S1024x512_S512x256_S1024x256_1_0_0_1_n_n 512 rfl rfl).symm k) = ix2 p k :=
    ix2_of _ _ _ (l0 _) ((dot_S1024x512_S512x256_S1024x256_1_0_0_1_n_n.lhsIdx_val_of_single rfl _ _).trans hk)
  have er : dot_S1024x512_S512x256_S1024x256_1_0_0_1_n_n.rhsIdx (ix2 p n) ((contrEquiv1 dot_S1024x512_S512x256_S1024x256_1_0_0_1_n_n 512 rfl rfl).symm k) = ix2 k n :=
    ix2_of _ _ _ ((dot_S1024x512_S512x256_S1024x256_1_0_0_1_n_n.rhsIdx_val_of_single rfl _ _).trans hk) (r1 _)
  rw [el, er]

/-- Matrix product 2 into a zero accumulator, read at (p, n): the sum over the 256 contracted coordinates. -/
theorem dot2_apply (X : FVec Ideal S1024x256 .bf16) (W : FVec Ideal S256x256 .bf16) (p : Fin 1024) (n : Fin 256) :
    matmul dot_S1024x256_S256x256_S1024x256_1_0_0_1_n_n none X W (constant S1024x256 .f32 0x00000000#32) (ix2 p n)
      = ∑ k : Fin 256, X (ix2 p k) * W (ix2 k n) := by
  refine (Ideal.matmul_constant_zero_apply dot_S1024x256_S256x256_S1024x256_1_0_0_1_n_n none X W (ix2 p n)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have l0 : ∀ q, (dot_S1024x256_S256x256_S1024x256_1_0_0_1_n_n.lhsIdx (ix2 p n) q 0).val = p.val := fun q => by
    unfold DotDims.lhsIdx
    rw [dif_neg (show ¬(0 : Fin S1024x256.rank) ∈ dot_S1024x256_S256x256_S1024x256_1_0_0_1_n_n.lhsBatch by decide),
      dif_pos (show (0 : Fin S1024x256.rank) ∈ dot_S1024x256_S256x256_S1024x256_1_0_0_1_n_n.lhsNonContracting by decide)]
    rfl
  have r1 : ∀ q, (dot_S1024x256_S256x256_S1024x256_1_0_0_1_n_n.rhsIdx (ix2 p n) q 1).val = n.val := fun q => by
    unfold DotDims.rhsIdx
    rw [dif_neg (show ¬(1 : Fin S256x256.rank) ∈ dot_S1024x256_S256x256_S1024x256_1_0_0_1_n_n.rhsBatch by decide),
      dif_pos (show (1 : Fin S256x256.rank) ∈ dot_S1024x256_S256x256_S1024x256_1_0_0_1_n_n.rhsNonContracting by decide)]
    rfl
  have el : dot_S1024x256_S256x256_S1024x256_1_0_0_1_n_n.lhsIdx (ix2 p n) ((contrEquiv1 dot_S1024x256_S256x256_S1024x256_1_0_0_1_n_n 256 rfl rfl).symm k) = ix2 p k :=
    ix2_of _ _ _ (l0 _) ((dot_S1024x256_S256x256_S1024x256_1_0_0_1_n_n.lhsIdx_val_of_single rfl _ _).trans hk)
  have er : dot_S1024x256_S256x256_S1024x256_1_0_0_1_n_n.rhsIdx (ix2 p n) ((contrEquiv1 dot_S1024x256_S256x256_S1024x256_1_0_0_1_n_n 256 rfl rfl).symm k) = ix2 k n :=
    ix2_of _ _ _ ((dot_S1024x256_S256x256_S1024x256_1_0_0_1_n_n.rhsIdx_val_of_single rfl _ _).trans hk) (r1 _)
  rw [el, er]

/-- Matrix product 3 into a zero accumulator, read at (p, n): the sum over the 256 contracted coordinates. -/
theorem dot3_apply (X : FVec Ideal S1024x256 .bf16) (W : FVec Ideal S256x128 .bf16) (p : Fin 1024) (n : Fin 128) :
    matmul dot_S1024x256_S256x128_S1024x128_1_0_0_1_n_n none X W (constant S1024x128 .f32 0x00000000#32) (ix2 p n)
      = ∑ k : Fin 256, X (ix2 p k) * W (ix2 k n) := by
  refine (Ideal.matmul_constant_zero_apply dot_S1024x256_S256x128_S1024x128_1_0_0_1_n_n none X W (ix2 p n)).trans ?_
  rw [← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  have l0 : ∀ q, (dot_S1024x256_S256x128_S1024x128_1_0_0_1_n_n.lhsIdx (ix2 p n) q 0).val = p.val := fun q => by
    unfold DotDims.lhsIdx
    rw [dif_neg (show ¬(0 : Fin S1024x256.rank) ∈ dot_S1024x256_S256x128_S1024x128_1_0_0_1_n_n.lhsBatch by decide),
      dif_pos (show (0 : Fin S1024x256.rank) ∈ dot_S1024x256_S256x128_S1024x128_1_0_0_1_n_n.lhsNonContracting by decide)]
    rfl
  have r1 : ∀ q, (dot_S1024x256_S256x128_S1024x128_1_0_0_1_n_n.rhsIdx (ix2 p n) q 1).val = n.val := fun q => by
    unfold DotDims.rhsIdx
    rw [dif_neg (show ¬(1 : Fin S256x128.rank) ∈ dot_S1024x256_S256x128_S1024x128_1_0_0_1_n_n.rhsBatch by decide),
      dif_pos (show (1 : Fin S256x128.rank) ∈ dot_S1024x256_S256x128_S1024x128_1_0_0_1_n_n.rhsNonContracting by decide)]
    rfl
  have el : dot_S1024x256_S256x128_S1024x128_1_0_0_1_n_n.lhsIdx (ix2 p n) ((contrEquiv1 dot_S1024x256_S256x128_S1024x128_1_0_0_1_n_n 256 rfl rfl).symm k) = ix2 p k :=
    ix2_of _ _ _ (l0 _) ((dot_S1024x256_S256x128_S1024x128_1_0_0_1_n_n.lhsIdx_val_of_single rfl _ _).trans hk)
  have er : dot_S1024x256_S256x128_S1024x128_1_0_0_1_n_n.rhsIdx (ix2 p n) ((contrEquiv1 dot_S1024x256_S256x128_S1024x128_1_0_0_1_n_n 256 rfl rfl).symm k) = ix2 k n :=
    ix2_of _ _ _ ((dot_S1024x256_S256x128_S1024x128_1_0_0_1_n_n.rhsIdx_val_of_single rfl _ _).trans hk) (r1 _)
  rw [el, er]

/-! ## The affine layers and the floor -/

/-- Affine layer 1 as the body writes it: the product of the two operands (their change of float format is the
    identity) into a zero accumulator, plus the bias row repeated down the rows. -/
def kAffine1 (X : FVec Ideal S1024x512 .f32) (W : FVec Ideal S512x256 .f32) (B : FVec Ideal S1x256 .f32) : FVec Ideal S1024x256 .f32 :=
  addf (matmul dot_S1024x512_S512x256_S1024x256_1_0_0_1_n_n none (truncf .bf16 X bitsLt_bf16_f32) (truncf .bf16 W bitsLt_bf16_f32) (constant S1024x256 .f32 0x00000000#32))
    (broadcastTo S1024x256 (shapeCast S1x256 B shapeCasts_S1x256_S1x256) broadcasts_S1x256_S1024x256)

theorem kAffine1_apply (X : FVec Ideal S1024x512 .f32) (W : FVec Ideal S512x256 .f32) (B : FVec Ideal S1x256 .f32) (p : Fin 1024) (n : Fin 256) :
    kAffine1 X W B (ix2 p n) = affine (rowOf X p) (matOf W) (oneRowOf B) n := by
  unfold kAffine1
  rw [addf_apply, dot1_apply, shapeCast_self, broadcastTo_1b_ab_apply]
  rfl

theorem kAffine1_row (X : FVec Ideal S1024x512 .f32) (W : FVec Ideal S512x256 .f32) (B : FVec Ideal S1x256 .f32) (p : Fin 1024) :
    rowOf (kAffine1 X W B) p = affine (rowOf X p) (matOf W) (oneRowOf B) :=
  funext fun n => kAffine1_apply X W B p n

/-- Affine layer 2 as the body writes it: the product of the two operands (their change of float format is the
    identity) into a zero accumulator, plus the bias row repeated down the rows. -/
def kAffine2 (X : FVec Ideal S1024x256 .f32) (W : FVec Ideal S256x256 .f32) (B : FVec Ideal S1x256 .f32) : FVec Ideal S1024x256 .f32 :=
  addf (matmul dot_S1024x256_S256x256_S1024x256_1_0_0_1_n_n none (truncf .bf16 X bitsLt_bf16_f32) (truncf .bf16 W bitsLt_bf16_f32) (constant S1024x256 .f32 0x00000000#32))
    (broadcastTo S1024x256 (shapeCast S1x256 B shapeCasts_S1x256_S1x256) broadcasts_S1x256_S1024x256)

theorem kAffine2_apply (X : FVec Ideal S1024x256 .f32) (W : FVec Ideal S256x256 .f32) (B : FVec Ideal S1x256 .f32) (p : Fin 1024) (n : Fin 256) :
    kAffine2 X W B (ix2 p n) = affine (rowOf X p) (matOf W) (oneRowOf B) n := by
  unfold kAffine2
  rw [addf_apply, dot2_apply, shapeCast_self, broadcastTo_1b_ab_apply]
  rfl

theorem kAffine2_row (X : FVec Ideal S1024x256 .f32) (W : FVec Ideal S256x256 .f32) (B : FVec Ideal S1x256 .f32) (p : Fin 1024) :
    rowOf (kAffine2 X W B) p = affine (rowOf X p) (matOf W) (oneRowOf B) :=
  funext fun n => kAffine2_apply X W B p n

/-- Affine layer 3 as the body writes it: the product of the two operands (their change of float format is the
    identity) into a zero accumulator, plus the bias row repeated down the rows. -/
def kAffine3 (X : FVec Ideal S1024x256 .f32) (W : FVec Ideal S256x128 .f32) (B : FVec Ideal S1x128 .f32) : FVec Ideal S1024x128 .f32 :=
  addf (matmul dot_S1024x256_S256x128_S1024x128_1_0_0_1_n_n none (truncf .bf16 X bitsLt_bf16_f32) (truncf .bf16 W bitsLt_bf16_f32) (constant S1024x128 .f32 0x00000000#32))
    (broadcastTo S1024x128 (shapeCast S1x128 B shapeCasts_S1x128_S1x128) broadcasts_S1x128_S1024x128)

theorem kAffine3_apply (X : FVec Ideal S1024x256 .f32) (W : FVec Ideal S256x128 .f32) (B : FVec Ideal S1x128 .f32) (p : Fin 1024) (n : Fin 128) :
    kAffine3 X W B (ix2 p n) = affine (rowOf X p) (matOf W) (oneRowOf B) n := by
  unfold kAffine3
  rw [addf_apply, dot3_apply, shapeCast_self, broadcastTo_1b_ab_apply]
  rfl

theorem kAffine3_row (X : FVec Ideal S1024x256 .f32) (W : FVec Ideal S256x128 .f32) (B : FVec Ideal S1x128 .f32) (p : Fin 1024) :
    rowOf (kAffine3 X W B) p = affine (rowOf X p) (matOf W) (oneRowOf B) :=
  funext fun n => kAffine3_apply X W B p n

/-- The floor at zero as the body writes it. -/
def kFloor (H : FVec Ideal S1024x256 .f32) : FVec Ideal S1024x256 .f32 :=
  maximumf H (broadcast S1024x256 (Scalar.ofBits .f32 0x00000000#32))

theorem kFloor_row (H : FVec Ideal S1024x256 .f32) (p : Fin 1024) : rowOf (kFloor H) p = floorAt wordZero (rowOf H p) := rfl

/-! ## The lane sum, the mean and the centred row -/

/-- A sum along the 128 lanes of row p, from the zero word. -/
theorem laneSum_apply (H : FVec Ideal S1024x128 .f32) (p : Fin 1024) :
    multiReduction .add [1] S1024 H 0x00000000#32 reduces_S1024x128_S1024 (.inl rfl) rfl (ix1 p) = ∑ k : Fin 128, H (ix2 p k) := by
  refine (Ideal.multiReduction_add_single H 0x00000000#32 reduces_S1024x128_S1024 (.inl rfl) rfl (ix1 p)).trans ?_
  refine Finset.sum_congr rfl fun k _ => congrArg H ?_
  exact ix2_of _ _ _ rfl rfl

/-- The rows' means, kept as a column. -/
def kMean (H : FVec Ideal S1024x128 .f32) : FVec Ideal S1024x1 .f32 :=
  divf (shapeCast S1024x1 (multiReduction .add [1] S1024 H 0x00000000#32 reduces_S1024x128_S1024 (.inl rfl) rfl) shapeCasts_S1024_S1024x1)
    (broadcast S1024x1 (Scalar.ofBits .f32 0x43000000#32))

theorem kMean_apply (H : FVec Ideal S1024x128 .f32) (p : Fin 1024) (u : Fin 1) : kMean H (ix2 p u) = mean wordLen (rowOf H p) := by
  unfold kMean
  rw [divf_apply, shapeCast_a_a1_apply, laneSum_apply]
  rfl

/-- Each row minus its mean. -/
def kCentre (H : FVec Ideal S1024x128 .f32) : FVec Ideal S1024x128 .f32 :=
  subf H (broadcastTo S1024x128 (kMean H) broadcasts_S1024x1_S1024x128)

theorem kCentre_apply (H : FVec Ideal S1024x128 .f32) (p : Fin 1024) (j : Fin 128) :
    kCentre H (ix2 p j) = centred wordLen (rowOf H p) j := by
  unfold kCentre
  rw [subf_apply, broadcastTo_a1_ab_apply, kMean_apply]
  rfl

/-! ## The body's centred latent block, and the block it stores -/

/-- The body's centred block is the three layers, the two floors and the centring, composed. -/
theorem pay2_eq (P0 : FVec Ideal S1024x512 .f32) (P1 : FVec Ideal S512x256 .f32) (P2 : FVec Ideal S1x256 .f32) (P3 : FVec Ideal S256x256 .f32) (P4 : FVec Ideal S1x256 .f32) (P5 : FVec Ideal S256x128 .f32) (P6 : FVec Ideal S1x128 .f32) :
    k0_pay2 (F := Ideal) P0 P1 P2 P3 P4 P5 P6 = kCentre (kAffine3 (kFloor (kAffine2 (kFloor (kAffine1 P0 P1 P2)) P3 P4)) P5 P6) := rfl

/-- Entry (p, j) of the centred block is entry j of the centred latent row of row p. -/
theorem pay2_apply (P0 : FVec Ideal S1024x512 .f32) (P1 : FVec Ideal S512x256 .f32) (P2 : FVec Ideal S1x256 .f32) (P3 : FVec Ideal S256x256 .f32) (P4 : FVec Ideal S1x256 .f32) (P5 : FVec Ideal S256x128 .f32) (P6 : FVec Ideal S1x128 .f32) (p : Fin 1024) (j : Fin 128) :
    k0_pay2 (F := Ideal) P0 P1 P2 P3 P4 P5 P6 (ix2 p j) = centred wordLen (latentRow P0 P1 (oneRowOf P2) P3 (oneRowOf P4) P5 (oneRowOf P6) p) j := by
  rw [pay2_eq, kCentre_apply, kAffine3_row, kFloor_row, kAffine2_row, kFloor_row, kAffine1_row]
  rfl

/-- Entry (p, j) of the stored block is entry j of the normalised latent row of row p, the scaling as a product. -/
theorem block_apply (P0 : FVec Ideal S1024x512 .f32) (P1 : FVec Ideal S512x256 .f32) (P2 : FVec Ideal S1x256 .f32) (P3 : FVec Ideal S256x256 .f32) (P4 : FVec Ideal S1x256 .f32) (P5 : FVec Ideal S256x128 .f32) (P6 : FVec Ideal S1x128 .f32) (P7 P8 : FVec Ideal S1x128 .f32) (p : Fin 1024) (j : Fin 128) :
    Cert.KernelIdeal.Value.E9 (F := Ideal) P0 P1 P2 P3 P4 P5 P6 P7 P8 (ix2 p j)
      = normMul wordLen wordEps (oneRowOf P7) (oneRowOf P8) (latentRow P0 P1 (oneRowOf P2) P3 (oneRowOf P4) P5 (oneRowOf P6) p) j := by
  have i0 : Cert.KernelIdeal.Value.ix9_0 (ix2 p j) = ix2 p j := ix2_of _ _ _ rfl rfl
  have i1 : Cert.KernelIdeal.Value.ix9_1 (ix2 p j) = ix1 p := ix1_of _ _ rfl
  have i2 : Cert.KernelIdeal.Value.ix9_2 (ix2 p j) = ix2 (0 : Fin 1) j := ix2_of _ _ _ rfl rfl
  have i3 : Cert.KernelIdeal.Value.ix9_3 (ix2 p j) = ix2 (0 : Fin 1) j := ix2_of _ _ _ rfl rfl
  unfold Cert.KernelIdeal.Value.E9
  rw [i0, i1, i2, i3, laneSum_apply, pay2_apply]
  simp only [mulf_apply, pay2_apply]
  rfl

end Cert.MlpNorm.Ker

end
-- ==== Proof.KernelArray.lean ====
/-
  From what each grid point writes back to the whole result array. Point t stages rows 1024·t … 1024·t + 1023 of the
  first argument, every weight matrix whole and every bias, gain and offset vector as its one row (a host reshape of
  the argument vector), and writes back rows 1024·t … 1024·t + 1023 of the result. So what point t writes back is block t
  of ONE array, the normalised latent rows of the first argument; the sixteen blocks tile the result, the block
  holding row r being block r / 1024; hence the run ends with the result array equal to that array.
-/
import proofs.«110389_g87505663689473_cont_9to1_m_1202_3_alg».proof.Proof.Spec
import proofs.«110389_g87505663689473_cont_9to1_m_1202_3_alg».proof.Proof.KernelRows
import proofs.«110389_g87505663689473_cont_9to1_m_1202_3_alg».proof.Proof.Gen.KernelIdeal.Value
import Idealize.ShloMosaic.Lib.ValueLayout
import Idealize.ShloMosaic.Lib.ValueIdx
import Idealize.ShloMosaic.Lib.Pipeline.Value
import Idealize.ShloMosaic.Lib.StableHlo.Run

noncomputable section

namespace Cert.MlpNorm.Arr

open Cert.KernelIdeal Cert.KernelIdeal.Gen Cert.MlpNorm Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeroOffset : (![0, 0] : Fin 2 → Nat) = fun _ => 0 := funext fun a => by fin_cases a <;> rfl

/-! ## The index maps over the grid -/

/-- Where each window's block sits at point t: the first argument's block index follows the result's along the rows,
    which stays below 16; every other block index is zero. -/
structure IdxFacts (t : Fin cfg0.N) : Prop where
  rows : win0_0.index t (0 : Fin 2) = win0_9.index t (0 : Fin 2)
  w0b : win0_0.index t (1 : Fin 2) = 0
  w9a : win0_9.index t (0 : Fin 2) ≤ 15
  w9b : win0_9.index t (1 : Fin 2) = 0
  w1a : win0_1.index t (0 : Fin 2) = 0
  w1b : win0_1.index t (1 : Fin 2) = 0
  w2a : win0_2.index t (0 : Fin 2) = 0
  w2b : win0_2.index t (1 : Fin 2) = 0
  w3a : win0_3.index t (0 : Fin 2) = 0
  w3b : win0_3.index t (1 : Fin 2) = 0
  w4a : win0_4.index t (0 : Fin 2) = 0
  w4b : win0_4.index t (1 : Fin 2) = 0
  w5a : win0_5.index t (0 : Fin 2) = 0
  w5b : win0_5.index t (1 : Fin 2) = 0
  w6a : win0_6.index t (0 : Fin 2) = 0
  w6b : win0_6.index t (1 : Fin 2) = 0
  w7a : win0_7.index t (0 : Fin 2) = 0
  w7b : win0_7.index t (1 : Fin 2) = 0
  w8a : win0_8.index t (0 : Fin 2) = 0
  w8b : win0_8.index t (1 : Fin 2) = 0

theorem idx_facts : ∀ t : Fin cfg0.N, IdxFacts t :=
  fun t => by
    have h : ∀ t : Fin grid0.N, win0_0.index t (0 : Fin 2) = win0_9.index t (0 : Fin 2) ∧ win0_0.index t (1 : Fin 2) = 0
        ∧ win0_9.index t (0 : Fin 2) ≤ 15 ∧ win0_9.index t (1 : Fin 2) = 0
        ∧ win0_1.index t (0 : Fin 2) = 0 ∧ win0_1.index t (1 : Fin 2) = 0 ∧ win0_2.index t (0 : Fin 2) = 0 ∧ win0_2.index t (1 : Fin 2) = 0
        ∧ win0_3.index t (0 : Fin 2) = 0 ∧ win0_3.index t (1 : Fin 2) = 0 ∧ win0_4.index t (0 : Fin 2) = 0 ∧ win0_4.index t (1 : Fin 2) = 0
        ∧ win0_5.index t (0 : Fin 2) = 0 ∧ win0_5.index t (1 : Fin 2) = 0 ∧ win0_6.index t (0 : Fin 2) = 0 ∧ win0_6.index t (1 : Fin 2) = 0
        ∧ win0_7.index t (0 : Fin 2) = 0 ∧ win0_7.index t (1 : Fin 2) = 0 ∧ win0_8.index t (0 : Fin 2) = 0 ∧ win0_8.index t (1 : Fin 2) = 0 := by
      decide +kernel
    obtain ⟨a, b, c, d, e1, f1, e2, f2, e3, f3, e4, f4, e5, f5, e6, f6, e7, f7, e8, f8⟩ := h t
    exact ⟨a, b, c, d, e1, f1, e2, f2, e3, f3, e4, f4, e5, f5, e6, f6, e7, f7, e8, f8⟩

/-- Every one of the sixteen row blocks is some point's. -/
theorem idx_onto : ∀ q : Fin 16, ∃ t : Fin cfg0.N, win0_9.index t = ![q.val, 0] :=
  (by decide +kernel : ∀ q : Fin 16, ∃ t : Fin grid0.N, win0_9.index t = ![q.val, 0])

/-- The array row that row p of point t's block is. -/
def rowAt (t : Fin cfg0.N) (p : Fin 1024) : Fin 16384 :=
  ⟨win0_9.index t (0 : Fin 2) * 1024 + p.val, by have := (idx_facts t).w9a; have := p.isLt; omega⟩

/-- Entry (p, j) of point t's output block is entry (rowAt t p, j) of the result array. -/
theorem emb9 (t : Fin cfg0.N) (p : Fin 1024) (j : Fin 128) :
    ((cfg0.win 9).blk t).view.emb (ix2 p j) = ix2 (rowAt t p) j := by
  have e := idx_facts t
  refine ix2_of (n0 := 16384) (n1 := 128) _ _ _ ?_ ?_
  · show win0_9.index t (0 : Fin 2) * 1024 + 1 * p.val = win0_9.index t (0 : Fin 2) * 1024 + p.val
    omega
  · show win0_9.index t (1 : Fin 2) * 128 + 1 * j.val = j.val
    have := e.w9b; omega

/-! ## The input windows' blocks, read off the argument arrays -/

/-- Row p of point t's block of the first argument is row (rowAt t p) of that argument. -/
theorem read0 (c : Dev nD) (t : Fin cfg0.N) (p : Fin 1024) (k : Fin 512) :
    iblk m c 0 t (ix2 p k) = (m ((c : Thread nD τ).loc main_arg0)) (ix2 (rowAt t p) k) := by
  have e := idx_facts t
  show V m c main_arg0 (((cfg0.win 0).blk t).view.emb (ix2 p k)) = _
  rw [V_main_arg0]
  refine congrArg (m ((c : Thread nD τ).loc main_arg0)) (ix2_of (n0 := 16384) (n1 := 512) _ _ _ ?_ ?_)
  · show win0_0.index t (0 : Fin 2) * 1024 + 1 * p.val = win0_9.index t (0 : Fin 2) * 1024 + p.val
    have := e.rows; omega
  · show win0_0.index t (1 : Fin 2) * 512 + 1 * k.val = k.val
    have := e.w0b; omega

/-- Window 1 stages its whole array at every point. -/
theorem read1 (c : Dev nD) (t : Fin cfg0.N) (a : Fin 512) (b : Fin 256) :
    iblk m c 1 t (ix2 a b) = (m ((c : Thread nD τ).loc main_arg1)) (ix2 a b) := by
  have e := idx_facts t
  show V m c main_arg1 (((cfg0.win 1).blk t).view.emb (ix2 a b)) = _
  rw [V_main_arg1]
  refine congrArg (m ((c : Thread nD τ).loc main_arg1)) (ix2_of (n0 := 512) (n1 := 256) _ _ _ ?_ ?_)
  · show win0_1.index t (0 : Fin 2) * 512 + 1 * a.val = a.val
    have := e.w1a; omega
  · show win0_1.index t (1 : Fin 2) * 256 + 1 * b.val = b.val
    have := e.w1b; omega

/-- Window 3 stages its whole array at every point. -/
theorem read3 (c : Dev nD) (t : Fin cfg0.N) (a : Fin 256) (b : Fin 256) :
    iblk m c 3 t (ix2 a b) = (m ((c : Thread nD τ).loc main_arg3)) (ix2 a b) := by
  have e := idx_facts t
  show V m c main_arg3 (((cfg0.win 3).blk t).view.emb (ix2 a b)) = _
  rw [V_main_arg3]
  refine congrArg (m ((c : Thread nD τ).loc main_arg3)) (ix2_of (n0 := 256) (n1 := 256) _ _ _ ?_ ?_)
  · show win0_3.index t (0 : Fin 2) * 256 + 1 * a.val = a.val
    have := e.w3a; omega
  · show win0_3.index t (1 : Fin 2) * 256 + 1 * b.val = b.val
    have := e.w3b; omega

/-- Window 5 stages its whole array at every point. -/
theorem read5 (c : Dev nD) (t : Fin cfg0.N) (a : Fin 256) (b : Fin 128) :
    iblk m c 5 t (ix2 a b) = (m ((c : Thread nD τ).loc main_arg5)) (ix2 a b) := by
  have e := idx_facts t
  show V m c main_arg5 (((cfg0.win 5).blk t).view.emb (ix2 a b)) = _
  rw [V_main_arg5]
  refine congrArg (m ((c : Thread nD τ).loc main_arg5)) (ix2_of (n0 := 256) (n1 := 128) _ _ _ ?_ ?_)
  · show win0_5.index t (0 : Fin 2) * 256 + 1 * a.val = a.val
    have := e.w5a; omega
  · show win0_5.index t (1 : Fin 2) * 128 + 1 * b.val = b.val
    have := e.w5b; omega

/-- What the region finds in the `[1, 256]` array a host reshape wrote from argument `main_arg2`: that vector as one row. -/
theorem host_main_v0 (c : Dev nD) :
    (V m c main_v0 : S1x256.Idx → EReal) = shapeCast S1x256 (m ((c : Thread nD τ).loc main_arg2)) shapeCasts_S256_S1x256 := by
  dsimp only [V, hostOps0]; after_results; rfl

/-- Window 2's one row, at every point, is that vector. -/
theorem read2 (c : Dev nD) (t : Fin cfg0.N) (n : Fin 256) :
    iblk m c 2 t (ix2 (0 : Fin 1) n) = (m ((c : Thread nD τ).loc main_arg2)) (ix1 n) := by
  have e := idx_facts t
  show V m c main_v0 (((cfg0.win 2).blk t).view.emb (ix2 (0 : Fin 1) n)) = _
  have h : ((cfg0.win 2).blk t).view.emb (ix2 (0 : Fin 1) n) = ix2 (0 : Fin 1) n :=
    ix2_of (n0 := 1) (n1 := 256) _ _ _
      (by show win0_2.index t (0 : Fin 2) * 1 + 1 * 0 = 0; have := e.w2a; omega)
      (by show win0_2.index t (1 : Fin 2) * 256 + 1 * n.val = n.val; have := e.w2b; omega)
  rw [h, host_main_v0, shapeCast_a_1a_apply]

/-- What the region finds in the `[1, 256]` array a host reshape wrote from argument `main_arg4`: that vector as one row. -/
theorem host_main_v1 (c : Dev nD) :
    (V m c main_v1 : S1x256.Idx → EReal) = shapeCast S1x256 (m ((c : Thread nD τ).loc main_arg4)) shapeCasts_S256_S1x256 := by
  dsimp only [V, hostOps0]; after_results; rfl

/-- Window 4's one row, at every point, is that vector. -/
theorem read4 (c : Dev nD) (t : Fin cfg0.N) (n : Fin 256) :
    iblk m c 4 t (ix2 (0 : Fin 1) n) = (m ((c : Thread nD τ).loc main_arg4)) (ix1 n) := by
  have e := idx_facts t
  show V m c main_v1 (((cfg0.win 4).blk t).view.emb (ix2 (0 : Fin 1) n)) = _
  have h : ((cfg0.win 4).blk t).view.emb (ix2 (0 : Fin 1) n) = ix2 (0 : Fin 1) n :=
    ix2_of (n0 := 1) (n1 := 256) _ _ _
      (by show win0_4.index t (0 : Fin 2) * 1 + 1 * 0 = 0; have := e.w4a; omega)
      (by show win0_4.index t (1 : Fin 2) * 256 + 1 * n.val = n.val; have := e.w4b; omega)
  rw [h, host_main_v1, shapeCast_a_1a_apply]

/-- What the region finds in the `[1, 128]` array a host reshape wrote from argument `main_arg6`: that vector as one row. -/
theorem host_main_v2 (c : Dev nD) :
    (V m c main_v2 : S1x128.Idx → EReal) = shapeCast S1x128 (m ((c : Thread nD τ).loc main_arg6)) shapeCasts_S128_S1x128 := by
  dsimp only [V, hostOps0]; after_results; rfl

/-- Window 6's one row, at every point, is that vector. -/
theorem read6 (c : Dev nD) (t : Fin cfg0.N) (n : Fin 128) :
    iblk m c 6 t (ix2 (0 : Fin 1) n) = (m ((c : Thread nD τ).loc main_arg6)) (ix1 n) := by
  have e := idx_facts t
  show V m c main_v2 (((cfg0.win 6).blk t).view.emb (ix2 (0 : Fin 1) n)) = _
  have h : ((cfg0.win 6).blk t).view.emb (ix2 (0 : Fin 1) n) = ix2 (0 : Fin 1) n :=
    ix2_of (n0 := 1) (n1 := 128) _ _ _
      (by show win0_6.index t (0 : Fin 2) * 1 + 1 * 0 = 0; have := e.w6a; omega)
      (by show win0_6.index t (1 : Fin 2) * 128 + 1 * n.val = n.val; have := e.w6b; omega)
  rw [h, host_main_v2, shapeCast_a_1a_apply]

/-- What the region finds in the `[1, 128]` array a host reshape wrote from argument `main_arg7`: that vector as one row. -/
theorem host_main_v3 (c : Dev nD) :
    (V m c main_v3 : S1x128.Idx → EReal) = shapeCast S1x128 (m ((c : Thread nD τ).loc main_arg7)) shapeCasts_S128_S1x128 := by
  dsimp only [V, hostOps0]; after_results; rfl

/-- Window 7's one row, at every point, is that vector. -/
theorem read7 (c : Dev nD) (t : Fin cfg0.N) (n : Fin 128) :
    iblk m c 7 t (ix2 (0 : Fin 1) n) = (m ((c : Thread nD τ).loc main_arg7)) (ix1 n) := by
  have e := idx_facts t
  show V m c main_v3 (((cfg0.win 7).blk t).view.emb (ix2 (0 : Fin 1) n)) = _
  have h : ((cfg0.win 7).blk t).view.emb (ix2 (0 : Fin 1) n) = ix2 (0 : Fin 1) n :=
    ix2_of (n0 := 1) (n1 := 128) _ _ _
      (by show win0_7.index t (0 : Fin 2) * 1 + 1 * 0 = 0; have := e.w7a; omega)
      (by show win0_7.index t (1 : Fin 2) * 128 + 1 * n.val = n.val; have := e.w7b; omega)
  rw [h, host_main_v3, shapeCast_a_1a_apply]

/-- What the region finds in the `[1, 128]` array a host reshape wrote from argument `main_arg8`: that vector as one row. -/
theorem host_main_v4 (c : Dev nD) :
    (V m c main_v4 : S1x128.Idx → EReal) = shapeCast S1x128 (m ((c : Thread nD τ).loc main_arg8)) shapeCasts_S128_S1x128 := by
  dsimp only [V, hostOps0]; after_results; rfl

/-- Window 8's one row, at every point, is that vector. -/
theorem read8 (c : Dev nD) (t : Fin cfg0.N) (n : Fin 128) :
    iblk m c 8 t (ix2 (0 : Fin 1) n) = (m ((c : Thread nD τ).loc main_arg8)) (ix1 n) := by
  have e := idx_facts t
  show V m c main_v4 (((cfg0.win 8).blk t).view.emb (ix2 (0 : Fin 1) n)) = _
  have h : ((cfg0.win 8).blk t).view.emb (ix2 (0 : Fin 1) n) = ix2 (0 : Fin 1) n :=
    ix2_of (n0 := 1) (n1 := 128) _ _ _
      (by show win0_8.index t (0 : Fin 2) * 1 + 1 * 0 = 0; have := e.w8a; omega)
      (by show win0_8.index t (1 : Fin 2) * 128 + 1 * n.val = n.val; have := e.w8b; omega)
  rw [h, host_main_v4, shapeCast_a_1a_apply]

/-! ## What a point writes back, the cover, and the run -/

/-- The result array as the function of the argument arrays the run ends at. -/
abbrev arrayResult (c : Dev nD) : (⟨2, ![16384, 128]⟩ : Shape).Idx → EReal :=
  resultMul (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point t writes back is block t of that array. -/
theorem flushed_eq (c : Dev nD) (t : Fin cfg0.N) :
    (dats m 0 c).flushed 9 t = ((cfg0.win 9).blk t).view.read (Elt Ideal) (arrayResult m c) := by
  rw [Cert.KernelIdeal.Value.flushed9]
  unfold out0_9
  simp only [View.ld_unit_zero (S := S1024x512) zeroOffset, View.ld_unit_zero (S := S512x256) zeroOffset,
    View.ld_unit_zero (S := S1x256) zeroOffset, View.ld_unit_zero (S := S256x256) zeroOffset,
    View.ld_unit_zero (S := S256x128) zeroOffset, View.ld_unit_zero (S := S1x128) zeroOffset]
  funext y
  obtain ⟨p, j, rfl⟩ : ∃ (p : Fin 1024) (j : Fin 128), y = ix2 p j := ⟨y 0, y 1, eq_ix2 y⟩
  show _ = arrayResult m c (((cfg0.win 9).blk t).view.emb (ix2 p j))
  rw [emb9]
  refine (Cert.KernelIdeal.Value.canon9_eq (F := Ideal) (iblk m c 0 t) (iblk m c 1 t) (iblk m c 2 t) (iblk m c 3 t) (iblk m c 4 t) (iblk m c 5 t) (iblk m c 6 t) (iblk m c 7 t) (iblk m c 8 t) (ix2 p j)).trans ?_
  refine (Ker.block_apply (iblk m c 0 t) (iblk m c 1 t) (iblk m c 2 t) (iblk m c 3 t) (iblk m c 4 t) (iblk m c 5 t) (iblk m c 6 t) (iblk m c 7 t) (iblk m c 8 t) p j).trans ?_
  have h0 : rowOf (iblk m c 0 t) p = rowOf (m ((c : Thread nD τ).loc main_arg0)) (rowAt t p) := funext fun k => read0 m c t p k
  have h1 : matOf (iblk m c 1 t) = matOf (m ((c : Thread nD τ).loc main_arg1)) := funext fun a => funext fun b => read1 m c t a b
  have h2 : oneRowOf (iblk m c 2 t) = vecOf (m ((c : Thread nD τ).loc main_arg2)) := funext fun n => read2 m c t n
  have h3 : matOf (iblk m c 3 t) = matOf (m ((c : Thread nD τ).loc main_arg3)) := funext fun a => funext fun b => read3 m c t a b
  have h4 : oneRowOf (iblk m c 4 t) = vecOf (m ((c : Thread nD τ).loc main_arg4)) := funext fun n => read4 m c t n
  have h5 : matOf (iblk m c 5 t) = matOf (m ((c : Thread nD τ).loc main_arg5)) := funext fun a => funext fun b => read5 m c t a b
  have h6 : oneRowOf (iblk m c 6 t) = vecOf (m ((c : Thread nD τ).loc main_arg6)) := funext fun n => read6 m c t n
  have h7 : oneRowOf (iblk m c 7 t) = vecOf (m ((c : Thread nD τ).loc main_arg7)) := funext fun n => read7 m c t n
  have h8 : oneRowOf (iblk m c 8 t) = vecOf (m ((c : Thread nD τ).loc main_arg8)) := funext fun n => read8 m c t n
  show normMul wordLen wordEps (oneRowOf (iblk m c 7 t)) (oneRowOf (iblk m c 8 t))
      (latent wordZero (rowOf (iblk m c 0 t) p) (matOf (iblk m c 1 t)) (oneRowOf (iblk m c 2 t)) (matOf (iblk m c 3 t))
        (oneRowOf (iblk m c 4 t)) (matOf (iblk m c 5 t)) (oneRowOf (iblk m c 6 t))) j = _
  rw [h0, h1, h2, h3, h4, h5, h6, h7, h8]
  rfl

/-- An index of the result is in point t's block iff each coordinate is in the block's range. -/
theorem mem_blk (t : Fin cfg0.N) (i : S16384x128.Idx) :
    i ∈ ((cfg0.win 9).blk t).view.set ↔ ∀ a : Fin 2, win0_9.index t a * S1024x128.size a ≤ (i a).val
      ∧ (i a).val < win0_9.index t a * S1024x128.size a + S1024x128.size a := by
  show i ∈ ((View.whole main_v5).slice (win0_9.rect t)).set ↔ _
  rw [View.set_slice_whole, Rect.mem_set_unit]
  exact Iff.rfl

/-- Every index of the result is in some point's block: row r is in block r / 1024. -/
theorem cover (i : S16384x128.Idx) : ∃ t : Fin cfg0.N, (cfg0.win 9).flush t = true ∧ i ∈ ((cfg0.win 9).blk t).view.set := by
  have hi0 : (i 0).val < 16384 := (i 0).isLt
  have hi1 : (i 1).val < 128 := (i 1).isLt
  obtain ⟨t, ht⟩ := idx_onto ⟨(i 0).val / 1024, by omega⟩
  have q0 : win0_9.index t (0 : Fin 2) = (i 0).val / 1024 := congrFun ht 0
  have q1 : win0_9.index t (1 : Fin 2) = 0 := congrFun ht 1
  refine ⟨t, flush0_9 t, ?_⟩
  rw [mem_blk]
  intro a
  match a with
  | ⟨0, _⟩ =>
    show win0_9.index t (0 : Fin 2) * 1024 ≤ (i 0).val ∧ (i 0).val < win0_9.index t (0 : Fin 2) * 1024 + 1024
    omega
  | ⟨1, _⟩ =>
    show win0_9.index t (1 : Fin 2) * 128 ≤ (i 1).val ∧ (i 1).val < win0_9.index t (1 : Fin 2) * 128 + 128
    omega

/-- The result array after the run. -/
theorem final (c : Dev nD) : (dats m 0 c).arrAt 9 cfg0.N = arrayResult m c :=
  (dats m 0 c).arrAt_eq_of_cover 9 (arrayResult m c) (fun t _ => flushed_eq m c t) cover

/-- The kernel's run: it ends with the result array at that function of the arguments, the arguments unchanged. -/
theorem run : θ_run defs (onTc (τ := τ) (main (F := Ideal))) ⟨m, fun _ => 0, ρ⟩ fun r => ∀ c : Dev nD,
      r.2.mem ((c : Thread nD τ).loc main_v5) = arrayResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.MlpNorm.Arr

end
-- ==== Proof.lean ====
/-
  A fused encoder and layer normalisation against its plain reference, equal on the extended reals.

  Both programs send each of the 16384 rows of the first argument through three affine layers (512 → 256 → 256 → 128,
  the first two followed by a maximum with zero), centre the resulting 128-entry row at its mean, and scale the centred
  row by the inverse square root of the mean of its squares plus a small positive number, then by a gain and an offset.
  The kernel does this 1024 rows at a time over sixteen grid points, changing float format before each matrix product
  (the identity on the extended reals) and writing the scaling as a product with the inverse square root; the reference
  does it on the whole arrays and divides by the square root.

  The two scalings agree on the extended reals exactly where the number under the root is positive, and it always is: it
  is a mean of squares, which is nonnegative whatever the entries (infinite ones included), plus a positive real. So the
  results are equal entry by entry for every input and the precondition is not used. Everything else is the same
  arithmetic in another arrangement: a matrix product into a zero accumulator is the reference's plain sum, a lane sum
  the reference's sum from zero, and the sixteen output blocks tile the result array.

  The kernel's frames and the reference's run are the generated ones; the idealization rewrote nothing, so the
  preservation claim is the trivial one.
-/
import proofs.«110389_g87505663689473_cont_9to1_m_1202_3_alg».proof.Defs
import proofs.«110389_g87505663689473_cont_9to1_m_1202_3_alg».proof.Proof.Gen.Kernel
import proofs.«110389_g87505663689473_cont_9to1_m_1202_3_alg».proof.Proof.Gen.Kernel.Skeleton
import proofs.«110389_g87505663689473_cont_9to1_m_1202_3_alg».proof.Proof.Gen.Kernel.Launch
import proofs.«110389_g87505663689473_cont_9to1_m_1202_3_alg».proof.Proof.Gen.Kernel.Points
import proofs.«110389_g87505663689473_cont_9to1_m_1202_3_alg».proof.Proof.Gen.Kernel.Frame
import proofs.«110389_g87505663689473_cont_9to1_m_1202_3_alg».proof.Proof.Gen.KernelIdeal
import proofs.«110389_g87505663689473_cont_9to1_m_1202_3_alg».proof.Proof.Gen.KernelIdeal.Skeleton
import proofs.«110389_g87505663689473_cont_9to1_m_1202_3_alg».proof.Proof.Gen.KernelIdeal.Launch
import proofs.«110389_g87505663689473_cont_9to1_m_1202_3_alg».proof.Proof.Gen.KernelIdeal.Points
import proofs.«110389_g87505663689473_cont_9to1_m_1202_3_alg».proof.Proof.Gen.KernelIdeal.Frame
import proofs.«110389_g87505663689473_cont_9to1_m_1202_3_alg».proof.Proof.Gen.ReferenceIdeal
import proofs.«110389_g87505663689473_cont_9to1_m_1202_3_alg».proof.Proof.Gen.KernelIdeal.Value
import proofs.«110389_g87505663689473_cont_9to1_m_1202_3_alg».proof.Proof.Gen.ReferenceIdeal.Run
import proofs.«110389_g87505663689473_cont_9to1_m_1202_3_alg».proof.Proof.Gen.ReferenceIdeal.Read
import proofs.«110389_g87505663689473_cont_9to1_m_1202_3_alg».proof.Proof.Gen.Pre_finite_inputs
import proofs.«110389_g87505663689473_cont_9to1_m_1202_3_alg».proof.Proof.Spec
import proofs.«110389_g87505663689473_cont_9to1_m_1202_3_alg».proof.Proof.RefRows
import proofs.«110389_g87505663689473_cont_9to1_m_1202_3_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the normalised latent rows of the first argument: the kernel with the
    scaling as a product with the inverse square root, the reference as a quotient by the square root, and the two are
    one array because the number under the root is positive. -/
theorem algebraic : Cert.algebraic_KernelIdeal_ReferenceIdeal := by
  intro m ρ m' ρ' _ hagree
  refine ⟨fun c => Cert.MlpNorm.Arr.arrayResult m c, Cert.MlpNorm.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v39_eq, Cert.MlpNorm.Ref.result_eq, ← Cert.MlpNorm.resultMul_eq_resultDiv,
    a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
